-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S16777216x1 : Shape := ⟨2, ![16777216, 1]⟩
abbrev S8192x2 : Shape := ⟨2, ![8192, 2]⟩
abbrev S8192x1 : Shape := ⟨2, ![8192, 1]⟩

abbrev nBuf : Space → Nat
  | .hbm => 2
  | .vmem => 4
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .local _ .vmem, ⟨0, _⟩ => ⟨S8192x2, .f32⟩
  | .local _ .vmem, ⟨1, _⟩ => ⟨S8192x2, .f32⟩
  | .local _ .vmem, ⟨2, _⟩ => ⟨S8192x1, .f32⟩
  | .local _ .vmem, ⟨3, _⟩ => ⟨S8192x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x2_S8192x1_0_0 : ∀ a, (![0, 0] : Fin 2 → Nat) a + S8192x1.size a ≤ S8192x2.size a
  h_S8192x1 : 0 < S8192x1.numel
  inb_S8192x2_S8192x1_0_1 : ∀ a, (![0, 1] : Fin 2 → Nat) a + S8192x1.size a ≤ S8192x2.size a
  inb_S8192x1_S8192x1_0_0 : ∀ a, (![0, 0] : Fin 2 → Nat) a + S8192x1.size a ≤ S8192x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S16777216x1.size a
  hwx0_1 : ∀ i : grid0.Coords, EltTy.bits .f32 = 32 ∨ (Rect.block (s := S16777216x1) S8192x1.size (cc0_transform_1 i) (hinb0_1 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216x1 : Shape := ⟨2, ![16777216, 1]⟩
abbrev S16777216 : Shape := ⟨1, ![16777216]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .hbm, ⟨2, _⟩ => ⟨S16777216, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216x1, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  bcast_S_S16777216 : S_.BroadcastsInDim S16777216 (![] : Fin 0 → Fin S16777216.rank)
  bcast_S16777216_S16777216x1_0 : S16777216.BroadcastsInDim S16777216x1 (![0] : Fin 1 → Fin S16777216x1.rank)

variable [Facts₀]

class Facts : Prop extends Facts₀ where

variable [Facts]
-- ==== Proof.RowValue.lean ====
/-
  The function both programs compute.  For an array `x` of 16 777 216 rows and two columns the result has one
  entry per row,
      y(r, 0) = (−1) · (((x(r,0) · x(r,0) − x(r,0)) + x(r,1) · x(r,1)) − x(r,1)),
  that is −(x₀² − x₀ + x₁² − x₁) in exactly this grouping.  Both programs perform these seven operations in this
  order, with the same constant word for −1, so the two results are the same term of the inputs under ANY reading
  of the float operations: no law of the extended reals is used, and the finiteness of the inputs is never needed.
-/
import Idealize.ShloMosaic.PureOps.Ideal
import Idealize.ShloMosaic.Lib.ValueIdx

noncomputable section

namespace Cert.RowValue

open Idealize.ShloMosaic Idealize.ShloMosaic.ValueIdx

variable {F : FTy → Type} [FloatOps F]

/-- One row's value from its two entries `a` and `b`: `(−1) · (((a · a − a) + b · b) − b)`. -/
def rowVal (a b : F .f32) : F .f32 :=
  FloatOps.mulf (FloatOps.ofBits .f32 0xBF800000#32)
    (FloatOps.subf (FloatOps.addf (FloatOps.subf (FloatOps.mulf a a) a) (FloatOps.mulf b b)) b)

/-- The whole result array: its entry `(r, 0)` is `rowVal` of the two entries of row `r`. -/
def ofRows (x : (⟨2, ![16777216, 2]⟩ : Shape).Idx → F .f32) : (⟨2, ![16777216, 1]⟩ : Shape).Idx → F .f32 :=
  fun i => rowVal (x (ix2 (n0 := 16777216) (n1 := 2) (i 0) 0)) (x (ix2 (n0 := 16777216) (n1 := 2) (i 0) 1))

theorem ofRows_apply (x : (⟨2, ![16777216, 2]⟩ : Shape).Idx → F .f32) (i : (⟨2, ![16777216, 1]⟩ : Shape).Idx) :
    ofRows x i = rowVal (x (ix2 (n0 := 16777216) (n1 := 2) (i 0) 0)) (x (ix2 (n0 := 16777216) (n1 := 2) (i 0) 1)) := rfl

end Cert.RowValue

end
-- ==== Proof.KernelRows.lean ====
/-
  The kernel, read index by index.  The grid has 2048 points; point `t` stages rows 8192·t … 8192·t + 8191 of
  the argument (a block of 8192 rows and both columns), the body loads the block's two columns, computes
  (−1) · (((c₀ · c₀ − c₀) + c₁ · c₁) − c₁) row by row and stores the 8192 results, which are written back as rows
  8192·t … 8192·t + 8191 of the result.  So what point `t` writes back is block `t` of the whole-array function
  `ofRows` of the argument, the 2048 blocks cover the result (row `r` lies in block `r / 8192`), and the result
  array ends holding `ofRows` of the argument.
-/
import proofs.«156191_j13572096655535_1_alg».proof.Proof.Gen.KernelIdeal.Value
import proofs.«156191_j13572096655535_1_alg».proof.Proof.RowValue
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Value Cert.RowValue

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- What the body leaves in the output buffer at local row `j`: `rowVal` of the two entries of row `j` of the
    staged input block (the two loads read column 0 and column 1 of the block, the one store covers the buffer). -/
theorem stored_apply (x0 : Vec F S8192x2 .f32) (j : S8192x1.Idx) :
    out0_1 x0 j = rowVal (x0 (ix2 (n0 := 8192) (n1 := 2) (j 0) 0)) (x0 (ix2 (n0 := 8192) (n1 := 2) (j 0) 1)) := by
  unfold out0_1
  rw [View.canon_unit_zero zero_offsets]
  show rowVal (x0 (r0_0.idx j)) (x0 (r0_1.idx j)) = _
  have h1 : (j 1).val < 1 := (j 1).isLt
  have e0 : r0_0.idx j = ix2 (n0 := 8192) (n1 := 2) (j 0) 0 := by
    funext a; apply Fin.ext
    match a with
    | ⟨0, _⟩ => show 0 + 1 * (j 0).val = (j 0).val; omega
    | ⟨1, _⟩ => show 0 + 1 * (j 1).val = 0; omega
  have e1 : r0_1.idx j = ix2 (n0 := 8192) (n1 := 2) (j 0) 1 := by
    funext a; apply Fin.ext
    match a with
    | ⟨0, _⟩ => show 0 + 1 * (j 0).val = (j 0).val; omega
    | ⟨1, _⟩ => show 1 + 1 * (j 1).val = 1; omega
  rw [e0, e1]

/-- The printed index maps, decided over the 2048 grid points: both windows' block index on the row axis is the
    point's position, and on the column axis it is zero. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows 8192·t … 8192·t + 8191 of the argument. -/
theorem staged_apply (c : Dev nD) (t : Fin cfg0.N) (y : S8192x2.Idx) (k : S16777216x2.Idx)
    (hk0 : (k 0).val = t.val * 8192 + (y 0).val) (hk1 : (k 1).val = (y 1).val) :
    (iblk m c 0 t : Vec F S8192x2 .f32) y = (V m c main_arg0 : S16777216x2.Idx → Elt F .f32) k := by
  obtain ⟨e0, e1, -, -⟩ := block_indices t
  unfold iblk
  rw [View.read_apply]
  show V m c main_arg0 _ = V m c main_arg0 _
  congr 1
  funext a; apply Fin.ext
  match a with
  | ⟨0, _⟩ => show win0_0.index t (0 : Fin 2) * 8192 + 1 * (y 0).val = (k 0).val; rw [e0, hk0]; omega
  | ⟨1, _⟩ => show win0_0.index t (1 : Fin 2) * 2 + 1 * (y 1).val = (k 1).val; rw [e1, hk1]; omega

/-- What point `t` writes back is block `t` of `ofRows` of the argument. -/
theorem flushed_eq (c : Dev nD) (t : Fin cfg0.N) :
    (dats m 0 c).flushed 1 t = ((cfg0.win 1).blk t).view.read (Elt F) (ofRows (V m c main_arg0)) := by
  rw [flushed1]
  obtain ⟨-, -, e2, e3⟩ := block_indices t
  funext j
  show out0_1 (iblk m c 0 t) j = ofRows (V m c main_arg0) (((cfg0.win 1).blk t).view.emb j)
  refine (stored_apply (iblk m c 0 t) j).trans ?_
  refine ((ofRows_apply (V m c main_arg0) (((cfg0.win 1).blk t).view.emb j)).trans ?_).symm
  have hrow : ((((cfg0.win 1).blk t).view.emb j) 0).val = t.val * 8192 + (j 0).val := by
    show win0_1.index t (0 : Fin 2) * 8192 + 1 * (j 0).val = _
    rw [e2]; omega
  congr 1
  · exact (staged_apply m c t _ _ hrow rfl).symm
  · exact (staged_apply m c t _ _ hrow rfl).symm

/-- An index of the result is in point `t`'s block iff each coordinate is in the block's range on its axis. -/
theorem mem_block (t : Fin cfg0.N) (i : S16777216x1.Idx) :
    i ∈ ((cfg0.win 1).blk t).view.set ↔ ∀ a : Fin 2, win0_1.index t a * S8192x1.size a ≤ (i a).val
      ∧ (i a).val < win0_1.index t a * S8192x1.size a + S8192x1.size a := by
  show i ∈ ((View.whole main_v0).slice (win0_1.rect t)).set ↔ _
  rw [View.set_slice_whole, Rect.mem_set_unit]
  exact Iff.rfl

/-- Every index of the result is in some point's block: row `r` is in block `r / 8192`. -/
theorem covered (i : S16777216x1.Idx) :
    ∃ t : Fin cfg0.N, (cfg0.win 1).flush t = true ∧ i ∈ ((cfg0.win 1).blk t).view.set := by
  have hi0 : (i 0).val < 16777216 := (i 0).isLt
  have hi1 : (i 1).val < 1 := (i 1).isLt
  have hN : cfg0.N = 2048 := N_0
  obtain ⟨t, ht⟩ : ∃ t : Fin cfg0.N, t.val = (i 0).val / 8192 := ⟨⟨(i 0).val / 8192, by rw [hN]; omega⟩, rfl⟩
  obtain ⟨-, -, e2, e3⟩ := block_indices t
  refine ⟨t, flush0_1 t, ?_⟩
  rw [mem_block]
  intro a
  match a with
  | ⟨0, _⟩ =>
    show win0_1.index t (0 : Fin 2) * 8192 ≤ (i 0).val ∧ (i 0).val < win0_1.index t (0 : Fin 2) * 8192 + 8192
    rw [e2, ht]; omega
  | ⟨1, _⟩ =>
    show win0_1.index t (1 : Fin 2) * 1 ≤ (i 1).val ∧ (i 1).val < win0_1.index t (1 : Fin 2) * 1 + 1
    rw [e3]; omega

/-- The result array after the run is `ofRows` of the argument. -/
theorem final (c : Dev nD) : (dats m 0 c).arrAt 1 cfg0.N = ofRows (V m c main_arg0) :=
  (dats m 0 c).arrAt_eq_of_cover 1 (ofRows (V m c main_arg0)) (fun t _ => flushed_eq m c t) covered

/-- The run, read: every weakly fair execution ends with the result array at `ofRows` of the argument and the
    argument unchanged. -/
theorem run : θ_run defs (onTc (τ := τ) (main (F := F))) ⟨m, fun _ => 0, ρ⟩ fun r => ∀ c : Dev nD,
      r.2.mem ((c : Thread nD τ).loc main_v0) = ofRows (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Rows

end
-- ==== Proof.ReferenceRows.lean ====
/-
  The reference, read index by index.  The reference slices out each column, flattens it to a vector of
  16 777 216 entries, computes (−1) · (((c₀ · c₀ − c₀) + c₁ · c₁) − c₁) entry by entry, and lays the vector out
  again as one column.  Entry `(r, 0)` of the result therefore depends on row `r` only: it is `rowVal` of
  `x(r, 0)` and `x(r, 1)`.  The only work is to follow row `r` through the slices, the flattening (a division by
  one) and the final re-layout.
-/
import proofs.«156191_j13572096655535_1_alg».proof.Proof.Gen.ReferenceIdeal.Read
import proofs.«156191_j13572096655535_1_alg».proof.Proof.RowValue

noncomputable section

namespace Cert.ReferenceIdeal.Rows

open Cert.ReferenceIdeal Cert.ReferenceIdeal.Read Cert.RowValue
open Idealize.ShloMosaic Idealize.ShloMosaic.ValueIdx

variable {F : FTy → Type} [FloatOps F]

/-- Entry `(r, 0)` of the result reads the first column at row `r`: through the re-layout, the flattening and the
    slice the index stays `(r, 0)`. -/
theorem first_column (i : S16777216x1.Idx) :
    idx_main_v0 (idx_main_v1 (idx_main_v11 i)) = ix2 (n0 := 16777216) (n1 := 2) (i 0) 0 := by
  funext a; apply Fin.ext
  match a with
  | ⟨0, _⟩ => show (i 0).val / 1 = (i 0).val; exact Nat.div_one _
  | ⟨1, _⟩ => rfl

/-- It reads the second column at the same row: the slice starts at column 1. -/
theorem second_column (i : S16777216x1.Idx) :
    idx_main_v2 (idx_main_v3 (idx_main_v11 i)) = ix2 (n0 := 16777216) (n1 := 2) (i 0) 1 := by
  funext a; apply Fin.ext
  match a with
  | ⟨0, _⟩ => show (i 0).val / 1 = (i 0).val; exact Nat.div_one _
  | ⟨1, _⟩ => rfl

/-- The reference's result, as a function of its argument array, is `ofRows`. -/
theorem result_eq (x0 : (⟨S16777216x2, .f32⟩ : BufTy).Contents (Elt F)) :
    val_main_v11 (F := F) x0 = ofRows x0 := by
  funext i
  rw [val_main_v11_apply, val_main_v10_apply, val_main_v9_apply, val_main_cst_apply, val_main_v8_apply,
    val_main_v7_apply, val_main_v5_apply, val_main_v4_apply, val_main_v6_apply, val_main_v1_apply,
    val_main_v3_apply, val_main_v0_apply, val_main_v2_apply, first_column, second_column]
  rfl

end Cert.ReferenceIdeal.Rows

end
-- ==== Proof.lean ====
/-
  The kernel and its reference compute, for an array `x` of 16 777 216 rows and two columns, the column
      y(r, 0) = (−1) · (((x(r,0) · x(r,0) − x(r,0)) + x(r,1) · x(r,1)) − x(r,1)),
  that is −(x₀² − x₀ + x₁² − x₁): the same seven operations in the same order and grouping, with the same
  constant word for −1 (`Cert.RowValue.ofRows`).  They differ only in layout: the kernel walks the rows in 2048
  blocks of 8192 (`Cert.KernelIdeal.Rows`: what a grid point writes back is its block of `ofRows`, and the blocks
  cover the result), the reference slices the two columns, flattens them and lays the result out again as a column
  (`Cert.ReferenceIdeal.Rows`: each index map keeps row `r`).  So both result arrays are `ofRows` of the argument,
  under any reading of the float operations; no law of the extended reals and no finiteness of the inputs is used.
  The three programs' runs (termination, no fault, arguments unchanged) are the generated frames and the
  reference's generated run; the idealization rewrote no operation, so there is nothing to preserve.
-/
import proofs.«156191_j13572096655535_1_alg».proof.Defs
import proofs.«156191_j13572096655535_1_alg».proof.Proof.Gen.Kernel
import proofs.«156191_j13572096655535_1_alg».proof.Proof.Gen.Kernel.Skeleton
import proofs.«156191_j13572096655535_1_alg».proof.Proof.Gen.Kernel.Launch
import proofs.«156191_j13572096655535_1_alg».proof.Proof.Gen.Kernel.Points
import proofs.«156191_j13572096655535_1_alg».proof.Proof.Gen.Kernel.Frame
import proofs.«156191_j13572096655535_1_alg».proof.Proof.Gen.KernelIdeal
import proofs.«156191_j13572096655535_1_alg».proof.Proof.Gen.KernelIdeal.Skeleton
import proofs.«156191_j13572096655535_1_alg».proof.Proof.Gen.KernelIdeal.Launch
import proofs.«156191_j13572096655535_1_alg».proof.Proof.Gen.KernelIdeal.Points
import proofs.«156191_j13572096655535_1_alg».proof.Proof.Gen.KernelIdeal.Frame
import proofs.«156191_j13572096655535_1_alg».proof.Proof.Gen.ReferenceIdeal
import proofs.«156191_j13572096655535_1_alg».proof.Proof.Gen.KernelIdeal.Value
import proofs.«156191_j13572096655535_1_alg».proof.Proof.Gen.ReferenceIdeal.Run
import proofs.«156191_j13572096655535_1_alg».proof.Proof.Gen.ReferenceIdeal.Read
import proofs.«156191_j13572096655535_1_alg».proof.Proof.Gen.Pre_finite_inputs
import proofs.«156191_j13572096655535_1_alg».proof.Proof.RowValue
import proofs.«156191_j13572096655535_1_alg».proof.Proof.KernelRows
import proofs.«156191_j13572096655535_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its argument as it was: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the argument, the kernel's result array and the reference's both end at `ofRows` of
    that argument: the kernel's by its blocks, the reference's by its stages read at an index. -/
theorem algebraic : Cert.algebraic_KernelIdeal_ReferenceIdeal := by
  intro m ρ m' ρ' _ hagree
  refine ⟨fun c => Cert.RowValue.ofRows (F := Ideal) (m ((c : Thread Cert.KernelIdeal.nD Cert.KernelIdeal.τ).loc Cert.KernelIdeal.main_arg0)),
    Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v11_eq _).trans (Cert.ReferenceIdeal.Rows.result_eq _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
